-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S1000x2048 : Shape := ⟨2, ![1000, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn {F : FTy → Type} [FloatOps F] (main_arg0 : FVec F S16384x2048 .f32) (main_arg1 : FVec F S1000x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S1000x2048 .f32 := Host.absf main_arg1
  let main_cst_0 : FVec F S_ .f32 := constant S_ .f32 0x7F800000#32
  let main_v5 : FVec F S1000x2048 .f32 := broadcastInDim S1000x2048 ![] bcast_S_S1000x2048 main_cst_0
  let main_v6 : IVec S1000x2048 1 := cmpf .olt main_v4 main_v5
  let main_c_1 : IVec S_ 1 := constantI S_ 1 1#1
  let main_v7 : IVec S_ 1 := (fun x v => Host.reduce IntOp.andi x v reducesTo_S1000x2048_S_d0_1 h_S_) main_v6 main_c_1
  let main_v8 : IVec S_ 1 := andi main_v3 main_v7
  main_v8
-- ==== Kernel.lean ====
abbrev S16384x2048 : Shape := ⟨2, ![16384, 2048]⟩
abbrev S1000x2048 : Shape := ⟨2, ![1000, 2048]⟩
abbrev S_ : Shape := ⟨0, ![]⟩
abbrev S1024x2048 : Shape := ⟨2, ![1024, 2048]⟩
abbrev S1024 : Shape := ⟨1, ![1024]⟩
abbrev S1024x1 : Shape := ⟨2, ![1024, 1]⟩
abbrev S1x1024 : Shape := ⟨2, ![1, 1024]⟩
abbrev S16384x1000 : Shape := ⟨2, ![16384, 1000]⟩
abbrev S512x2048 : Shape := ⟨2, ![512, 2048]⟩
abbrev S512x1000 : Shape := ⟨2, ![512, 1000]⟩
abbrev S512 : Shape := ⟨1, ![512]⟩
abbrev S512x1 : Shape := ⟨2, ![512, 1]⟩
abbrev S512x1024 : Shape := ⟨2, ![512, 1024]⟩

abbrev nBuf : Space → Nat
  | .hbm => 12
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S_, .i32⟩
  | .hbm, ⟨3, _⟩ => ⟨S_, .f32⟩
  | .hbm, ⟨4, _⟩ => ⟨S1024x2048, .f32⟩
  | .hbm, ⟨5, _⟩ => ⟨S1024x2048, .bf16⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1x1024, .f32⟩
  | .hbm, ⟨11, _⟩ => ⟨S16384x1000, .f32⟩
  | .local _ .vmem, ⟨0, _⟩ => ⟨S512x2048, .f32⟩
  | .local _ .vmem, ⟨1, _⟩ => ⟨S512x2048, .f32⟩
  | .local _ .vmem, ⟨2, _⟩ => ⟨S1024x2048, .bf16⟩
  | .local _ .vmem, ⟨3, _⟩ => ⟨S1x1024, .f32⟩
  | .local _ .vmem, ⟨4, _⟩ => ⟨S512x1000, .f32⟩
  | .local _ .vmem, ⟨5, _⟩ => ⟨S512x1000, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S1000x2048_S1024x2048_0240_000 : S1000x2048.Pads (![0, 0] : Fin 2 → Nat) ![24, 0] ![0, 0] S1024x2048
  h_S_ : 0 < S_.numel
  bitsLt_bf16_f32 : FTy.bits .bf16 < FTy.bits .f32
  reducesTo_S1024x2048_S1024_d1 : S1024x2048.ReducesTo [1] S1024
  bcast_S1024_S1024x1_0 : S1024.BroadcastsInDim S1024x1 (![0] : Fin 1 → Fin S1024x1.rank)
  transposes_S1024x1_S1x1024_1_0 : S1024x1.Transposes [1, 0] S1x1024
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x2048_S512 : S512x2048.Reduces [1] S512
  shapeCasts_S512_S512x1 : S512.ShapeCasts S512x1
  broadcasts_S512x1_S512x1024 : S512x1.Broadcasts S512x1024
  broadcasts_S1x1024_S512x1024 : S1x1024.Broadcasts S512x1024
  slices_S512x1024_o0_0_S512x1000 : S512x1024.Slices ![0, 0] S512x1000
  inb_S512x1000_S512x1000_0_0 : ∀ a, (![0, 0] : Fin 2 → Nat) a + S512x1000.size a ≤ S512x1000.size a
  h_S512x1000 : 0 < S512x1000.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S1000x2048 : Shape := ⟨2, ![1000, 2048]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1000x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x2048, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S_, .f32⟩
  | .hbm, ⟨15, _⟩ => ⟨S16384x1000, .f32⟩
  | .hbm, ⟨16, _⟩ => ⟨S16384x1000, .f32⟩
  | .hbm, ⟨17, _⟩ => ⟨S16384x1000, .f32⟩
  | .hbm, ⟨18, _⟩ => ⟨S_, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S_, .f32⟩
  | .hbm, ⟨24, _⟩ => ⟨S16384x1000, .f32⟩
  | .hbm, ⟨25, _⟩ => ⟨S16384x1000, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  reducesTo_S1000x2048_S1000_d1 : S1000x2048.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  dot_S16384x2048_S1000x2048_S16384x1000_1_1_0_0_n_n_wf : DotDims.WF S16384x2048 S1000x2048 S16384x1000 [1] [1] [0] [0] [] []

variable [Facts₀]

def dot_S16384x2048_S1000x2048_S16384x1000_1_1_0_0_n_n : DotDims S16384x2048 S1000x2048 S16384x1000 where
  lhsContracting := [1]
  rhsContracting := [1]
  lhsNonContracting := [0]
  rhsNonContracting := [0]
  lhsBatch := []
  rhsBatch := []
  wf := dot_S16384x2048_S1000x2048_S16384x1000_1_1_0_0_n_n_wf

class Facts : Prop extends Facts₀ where

variable [Facts]
-- ==== Proof.NegDistance.lean ====
/-
  The function both programs compute: the negated Euclidean distance between every row of a
  [16384, 2048] array `f` and every row of a [1000, 2048] array `p`, through the expansion
  ‖f_b - p_c‖² = ‖f_b‖² + ‖p_c‖² - 2 ⟨f_b, p_c⟩, clamped below at zero before the root,
  negated, and divided by the temperature 1.  Everything is read on the extended reals, where
  the three sums over the 2048 features are plain finite sums; no entry's finiteness is used.
-/
import Idealize.ShloMosaic.PureOps.Ideal.Laws
import Idealize.ShloMosaic.Lib.ValueIdx

noncomputable section

namespace Cert.NegDistance

open Idealize.ShloMosaic Idealize.ShloMosaic.ValueIdx

/-- A prototype row index, below 1000, as a row index of the prototypes padded with zero rows to 1024 rows. -/
abbrev col (c : Fin 1000) : Fin 1024 := ⟨c.val, by have := c.isLt; omega⟩

/-- One entry from its three sums: `fs` the squared norm of the feature row, `ps` the squared norm of
    the prototype row, `cr` their inner product.  The literals are the words 2.0 and 1.0. -/
def entry (fs ps cr : EReal) : EReal :=
  Ideal.div (-(Ideal.sqrt (max (fs + ps - Ideal.ofBits .f32 0x40000000#32 * cr) 0))) (Ideal.ofBits .f32 0x3F800000#32)

/-- The entry at feature row `b` and prototype row `c`. -/
def negDistAt (f : (⟨2, ![16384, 2048]⟩ : Shape).Idx → EReal) (p : (⟨2, ![1000, 2048]⟩ : Shape).Idx → EReal)
    (b : Fin 16384) (c : Fin 1000) : EReal :=
  entry (∑ k : Fin 2048, f (ix2 b k) * f (ix2 b k)) (∑ k : Fin 2048, p (ix2 c k) * p (ix2 c k))
    (∑ k : Fin 2048, f (ix2 b k) * p (ix2 c k))

/-- The whole [16384, 1000] array of negated distances. -/
def negDist (f : (⟨2, ![16384, 2048]⟩ : Shape).Idx → EReal) (p : (⟨2, ![1000, 2048]⟩ : Shape).Idx → EReal) :
    (⟨2, ![16384, 1000]⟩ : Shape).Idx → EReal :=
  fun i => negDistAt f p (i 0) (i 1)

theorem negDist_ix2 (f : (⟨2, ![16384, 2048]⟩ : Shape).Idx → EReal) (p : (⟨2, ![1000, 2048]⟩ : Shape).Idx → EReal)
    (b : Fin 16384) (c : Fin 1000) : negDist f p (ix2 b c) = negDistAt f p b c := rfl

end Cert.NegDistance

end
-- ==== Proof.RefNegDistance.lean ====
/-
  The reference's result is the negated-distance array.  Read one stage at a time (the generated
  read-at-an-index lemmas), entry (b, c) of the reference's last stage is
  (-(√ max ((0 + Σ_k f[b,k]²) + (0 + Σ_k p[c,k]²) - 2 · Σ_k f[b,k] p[c,k]) 0)) / 1:
  the two keepdims sums are broadcast along the other axis, the dot_general contracts the feature
  axis of both operands.  The initial values of the two host sums are the zero word, so 0 + s = s.
-/
import proofs.«179869_j59081570124167_2_alg».proof.Proof.Gen.ReferenceIdeal.Read
import proofs.«179869_j59081570124167_2_alg».proof.Proof.NegDistance

noncomputable section

namespace Cert.ReferenceIdeal.RefValue

open Cert.ReferenceIdeal Cert.ReferenceIdeal.Read Idealize.ShloMosaic Idealize.ShloMosaic.ValueIdx Cert.NegDistance

/-- The reference's last stage, as a function of the two argument arrays, is `negDist`. -/
theorem val_eq_negDist (x0 : (⟨S16384x2048, .f32⟩ : BufTy).Contents (Elt Ideal)) (x1 : (⟨S1000x2048, .f32⟩ : BufTy).Contents (Elt Ideal)) :
    val_main_v18 (F := Ideal) x0 x1 = negDist x0 x1 := by
  funext i
  obtain ⟨b, c, rfl⟩ : ∃ (b : Fin 16384) (c : Fin 1000), i = ix2 b c := ⟨i 0, i 1, eq_ix2 i⟩
  -- the row of `f`, the row of `p`, and the two operand rows of the contraction, as literal indices
  have ef : ∀ k : Fin 2048, idx_main_v1 (idx_main_v2 (idx_main_v7 (ix2 b c))) k = ix2 b k := fun k =>
    funext fun a => Fin.ext (by match a with | ⟨0, _⟩ => rfl | ⟨1, _⟩ => rfl)
  have ep : ∀ k : Fin 2048, idx_main_v4 (idx_main_v5 (idx_main_v8 (ix2 b c))) k = ix2 c k := fun k =>
    funext fun a => Fin.ext (by match a with | ⟨0, _⟩ => rfl | ⟨1, _⟩ => rfl)
  have el : ∀ k : Fin 2048, lidx_main_v6 (ix2 b c) k = ix2 b k := fun k =>
    funext fun a => Fin.ext (by match a with | ⟨0, _⟩ => rfl | ⟨1, _⟩ => rfl)
  have er : ∀ k : Fin 2048, ridx_main_v6 (ix2 b c) k = ix2 c k := fun k =>
    funext fun a => Fin.ext (by match a with | ⟨0, _⟩ => rfl | ⟨1, _⟩ => rfl)
  rw [val_main_v18_apply, val_main_v17_apply, val_main_cst_3_apply, val_main_v16_apply, val_main_v15_apply,
    val_main_v14_apply, val_main_v13_apply, val_main_cst_2_apply, val_main_v12_apply, val_main_v11_apply,
    val_main_v10_apply, val_main_cst_1_apply, val_main_v6_apply, val_main_v9_apply, val_main_v7_apply,
    val_main_v2_apply, val_main_v1_apply, val_main_v8_apply, val_main_v5_apply, val_main_v4_apply,
    val_main_cst_apply, val_main_cst_0_apply]
  simp only [val_main_v0_apply, val_main_v3_apply, ef, ep, el, er, Ideal.hostDivf_def, Ideal.hostNegf_def,
    Ideal.negf_def, Ideal.hostUnary_sqrt_def, Ideal.maximumf_def, Ideal.subf_def, Ideal.mulf_def, Ideal.addf_def,
    Ideal.ofBits_def, Ideal.ofBits_zero_f32, zero_add]
  rfl

end Cert.ReferenceIdeal.RefValue

end
-- ==== Proof.Payload.lean ====
/-
  What the kernel body stores, entry by entry.  At a grid point the body holds a [512, 2048] block
  `x0` of feature rows, the whole [1024, 2048] padded prototype array `x1` and the [1, 1024] row `x2` of
  the prototypes' squared norms.  Entry (r, c), c < 1000, of what it stores is
  (0 - √ max ((Σ_k x0[r,k]² + x2[0,c]) - 2 · Σ_k x0[r,k] x1[c,k]) 0) / 1:
  the lane sum of the squares, kept as a column and laid along the columns; the norms' row laid along the
  rows; the matrix product into a zero accumulator, contracting the feature axis of both operands (the
  change of float format of its operands is the identity on the extended reals); and the first 1000 of the
  1024 columns kept.  With 0 - s = -s this is `entry` of those three numbers.
-/
import proofs.«179869_j59081570124167_2_alg».proof.Proof.Gen.KernelIdeal.Skeleton
import proofs.«179869_j59081570124167_2_alg».proof.Proof.NegDistance
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.NegDistance

/-- The lane sum of a [512, 2048] vector, kept as a [512, 1] column and laid along 1024 columns, read at (r, c):
    the sum of row r. -/
theorem rowSum_apply (v : FVec Ideal S512x2048 .f32) (r : Fin 512) (c : Fin 1024) :
    broadcastTo S512x1024 (shapeCast S512x1 (multiReduction .add [1] S512 v 0x00000000#32 reduces_S512x2048_S512 (.inl rfl) rfl)
        shapeCasts_S512_S512x1) broadcasts_S512x1_S512x1024 (ix2 r c)
      = ∑ k : Fin 2048, v (ix2 r k) := by
  refine (broadcastTo_apply _ broadcasts_S512x1_S512x1024 (ix2 r c) (ix2 r (0 : Fin 1)) (fun a => ?_)).trans ?_
  · match a with
    | ⟨0, _⟩ => rfl
    | ⟨1, _⟩ => rfl
  refine (shapeCast_apply _ shapeCasts_S512_S512x1 (ix2 r (0 : Fin 1)) (ix1 r) ?_).trans ?_
  · rw [Shape.rowMajor_val_one, Shape.rowMajor_val_two]
    show r.val = r.val * 1 + 0
    omega
  refine (Ideal.multiReduction_add_single v 0x00000000#32 reduces_S512x2048_S512 (.inl rfl) rfl (ix1 r)).trans ?_
  refine Finset.sum_congr rfl fun k _ => congrArg v ?_
  exact funext fun a => Fin.ext (by match a with | ⟨0, _⟩ => rfl | ⟨1, _⟩ => rfl)

/-- A [1, 1024] row laid along 512 rows, read at (r, c): the row at c. -/
theorem rowBcast_apply (x2 : FVec Ideal S1x1024 .f32) (r : Fin 512) (c : Fin 1024) :
    broadcastTo S512x1024 (shapeCast S1x1024 x2 shapeCasts_S1x1024_S1x1024) broadcasts_S1x1024_S512x1024 (ix2 r c)
      = x2 (ix2 (0 : Fin 1) c) := by
  rw [shapeCast_self]
  refine broadcastTo_apply _ broadcasts_S1x1024_S512x1024 (ix2 r c) (ix2 (0 : Fin 1) c) (fun a => ?_)
  match a with
  | ⟨0, _⟩ => rfl
  | ⟨1, _⟩ => rfl

theorem lhs_0 (i : S512x1024.Idx) (q : dot_S512x2048_S1024x2048_S512x1024_1_1_0_0_n_n.contr.Idx) : (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_1 (i : S512x1024.Idx) (q : dot_S512x2048_S1024x2048_S512x1024_1_1_0_0_n_n.contr.Idx) : (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_0 (i : S512x1024.Idx) (q : dot_S512x2048_S1024x2048_S512x1024_1_1_0_0_n_n.contr.Idx) : (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_1 (i : S512x1024.Idx) (q : dot_S512x2048_S1024x2048_S512x1024_1_1_0_0_n_n.contr.Idx) : (dot_S512x2048_S1024x2048_S512x1024_1_1_0_0_n_n.rhsIdx i q 1).val = (q ⟨0, by decide⟩).val :=
  dot_S512x2048_S1024x2048_S512x1024_1_1_0_0_n_n.rhsIdx_val_of_single rfl i q

/-- The matrix product of the block with the padded prototypes, into a zero accumulator, read at (r, c):
    the inner product of row r of the block and row c of the prototypes. -/
theorem cross_apply (x0 : FVec Ideal S512x2048 .f32) (x1 : FVec Ideal S1024x2048 .bf16) (r : Fin 512) (c : Fin 1024) :
    matmul dot_S512x2048_S1024x2048_S512x1024_1_1_0_0_n_n none (truncf .bf16 x0 bitsLt_bf16_f32) (shapeCast S1024x2048 x1 shapeCasts_S1024x2048_S1024x2048)
        (constant S512x1024 .f32 0x00000000#32) (ix2 r c)
      = ∑ k : Fin 2048, x0 (ix2 r k) * x1 (ix2 c k) := by
  rw [shapeCast_self]
  refine (Ideal.matmul_constant_zero_apply dot_S512x2048_S1024x2048_S512x1024_1_1_0_0_n_n none _ _ (ix2 r c)).trans ?_
  rw [← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 r c) ((contrEquiv1 dot_S512x2048_S1024x2048_S512x1024_1_1_0_0_n_n 2048 rfl rfl).symm k) = ix2 r k := funext fun a => Fin.ext (by
    match a with
    | ⟨0, _⟩ => exact lhs_0 _ _
    | ⟨1, _⟩ => exact (lhs_1 _ _).trans hk)
  have er : dot_S512x2048_S1024x2048_S512x1024_1_1_0_0_n_n.rhsIdx (ix2 r c) ((contrEquiv1 dot_S512x2048_S1024x2048_S512x1024_1_1_0_0_n_n 2048 rfl rfl).symm k) = ix2 c k := funext fun a => Fin.ext (by
    match a with
    | ⟨0, _⟩ => exact rhs_0 _ _
    | ⟨1, _⟩ => exact (rhs_1 _ _).trans hk)
  rw [el, er]
  rfl

/-- The root of a vector, read at an index. -/
theorem sqrt_apply {s : Shape} (a : FVec Ideal s .f32) (i : s.Idx) : sqrt a i = Ideal.sqrt (a i) := rfl

/-- A literal word as a scalar, on the extended reals. -/
theorem scalar_ofBits (w : BitVec 32) : Scalar.ofBits (F := Ideal) .f32 w = Ideal.ofBits .f32 w := rfl

/-- ENTRY (r, c) OF WHAT THE BODY STORES, c < 1000: `entry` of the squared norm of row r of the feature block,
    the squared norm the norms' row holds at c, and the inner product of row r with prototype row c. -/
theorem pay_apply (x0 : FVec Ideal S512x2048 .f32) (x1 : FVec Ideal S1024x2048 .bf16) (x2 : FVec Ideal S1x1024 .f32)
    (r : Fin 512) (c : Fin 1000) :
    k0_pay1 (F := Ideal) x0 x1 x2 (ix2 r c)
      = entry (∑ k : Fin 2048, x0 (ix2 r k) * x0 (ix2 r k)) (x2 (ix2 (0 : Fin 1) (col c)))
          (∑ k : Fin 2048, x0 (ix2 r k) * x1 (ix2 (col c) k)) := by
  unfold k0_pay1
  dsimp only
  refine (extractStridedSlice_apply ![0, 0] _ slices_S512x1024_o0_0_S512x1000 (ix2 r c) (ix2 r (col c)) (fun a => ?_)).trans ?_
  · match a with
    | ⟨0, _⟩ => show r.val = 0 + r.val; omega
    | ⟨1, _⟩ => show c.val = 0 + c.val; omega
  simp only [divf_apply, subf_apply, mulf_apply, addf_apply, maximumf_apply, broadcast_apply, sqrt_apply, scalar_ofBits]
  rw [rowSum_apply, rowBcast_apply, cross_apply]
  simp only [mulf_apply]
  unfold entry
  rw [Ideal.ofBits_zero_f32, zero_sub]

end Cert.KernelIdeal.Payload

end
-- ==== Proof.HostWindows.lean ====
/-
  The two arrays the host prepares before the kernel is launched, read at an index.  The prototypes are padded
  with 24 zero rows to [1024, 2048]; the kernel's second operand is that array (its change of float format is the
  identity on the extended reals), so at a row below 1000 it is the prototype array itself.  The third operand is
  the [1, 1024] row of the padded rows' squared norms: the host's sum over the feature axis from the initial value 0,
  kept as a column and transposed; at a column below 1000 it is Σ_k p[c,k]².
-/
import proofs.«179869_j59081570124167_2_alg».proof.Proof.Gen.KernelIdeal.Frame
import proofs.«179869_j59081570124167_2_alg».proof.Proof.NegDistance
import Idealize.ShloMosaic.Lib.KernelVsHost
import Idealize.ShloMosaic.Lib.ValueLayout
import Idealize.ShloMosaic.Lib.StableHlo.Run

noncomputable section

namespace Cert.KernelIdeal.HostWindows

open Cert.KernelIdeal Cert.KernelIdeal.Gen Idealize.ShloMosaic Idealize.ShloMosaic.ValueIdx Idealize.ShloMosaic.TcCoe
  Idealize.SL.Sem Idealize.ShloMosaic.StableHlo Cert.NegDistance

/-- The prototypes padded with 24 rows of the converted integer zero. -/
def padded (p : FVec Ideal S1000x2048 .f32) : FVec Ideal S1024x2048 .f32 :=
  pad S1024x2048 ![0, 0] ![24, 0] ![0, 0] p (sitofp (F := Ideal) .f32 (constantI S_ 32 0#32)) pads_S1000x2048_S1024x2048_0240_000 h_S_

/-- A row below 1000 of the padded array is that row of the prototypes. -/
theorem padded_apply (p : FVec Ideal S1000x2048 .f32) (q : Fin 1000) (k : Fin 2048) :
    padded p (ix2 (col q) k) = p (ix2 q k) := by
  unfold padded
  exact pad_apply_of_inside ![0, 0] ![24, 0] ![0, 0] p _ pads_S1000x2048_S1024x2048_0240_000 h_S_ (ix2 (col q) k) (ix2 q k)
    (fun a => by
      match a with
      | ⟨0, _⟩ => show q.val = 0 + q.val * (0 + 1); omega
      | ⟨1, _⟩ => show k.val = 0 + k.val * (0 + 1); omega)

/-- The host's sum over the feature axis of a [1024, 2048] array from the zero word, at row q: the sum of row q. -/
theorem hostRowSum_apply (y : FVec Ideal S1024x2048 .f32) (q : Fin 1024) :
    Host.reduceAdd (F := Ideal) y (constant (F := Ideal) S_ .f32 0x00000000#32) reducesTo_S1024x2048_S1024_d1 h_S_ (ix1 q)
      = ∑ k : Fin 2048, y (ix2 q k) := by
  simp only [Host.reduceAdd, Ideal.hostReduceAdd_def]
  rw [Ideal.hostReduceAdd_single reducesTo_S1024x2048_S1024_d1 (by decide)]
  show Ideal.ofBits .f32 0x00000000#32 + _ = _
  rw [Ideal.ofBits_zero_f32, zero_add]
  refine Finset.sum_congr rfl fun k _ => congrArg y ?_
  exact funext fun a => Fin.ext (by match a with | ⟨0, _⟩ => rfl | ⟨1, _⟩ => rfl)

variable (m : (ℓ : Loc nD τ sig) → Buf (Elt Ideal) ℓ)

/-- The feature argument as launched on core `c`, as an array of extended reals. -/
abbrev feats (c : Dev nD) : S16384x2048.Idx → EReal := m ((c : Thread nD τ).loc main_arg0)

/-- The prototype argument as launched on core `c`, as an array of extended reals. -/
abbrev protos (c : Dev nD) : S1000x2048.Idx → EReal := m ((c : Thread nD τ).loc main_arg1)

/-- The kernel's second operand as the region finds it: the padded prototypes. -/
theorem V_main_v1 (c : Dev nD) :
    (V m c main_v1 : S1024x2048.Idx → EReal) = truncf .bf16 (padded (protos m c)) bitsLt_bf16_f32 := by
  dsimp only [Gen.V]
  simp only [Gen.hostOps0, Gen.hostOps0_1, Gen.hostOps0_2, List.flatten_cons, List.flatten_nil, List.append_nil,
    List.cons_append, List.nil_append]
  after_results
  rfl

/-- The kernel's third operand as the region finds it: the row of the padded rows' squared norms. -/
theorem V_main_v5 (c : Dev nD) :
    (V m c main_v5 : S1x1024.Idx → EReal)
      = transpose S1x1024 [1, 0] (broadcastInDim S1024x1 ![0] bcast_S1024_S1024x1_0
          (Host.reduceAdd (F := Ideal) (mulf (padded (protos m c)) (padded (protos m c)))
            (constant (F := Ideal) S_ .f32 0x00000000#32) reducesTo_S1024x2048_S1024_d1 h_S_)) transposes_S1024x1_S1x1024_1_0 := by
  dsimp only [Gen.V]
  simp only [Gen.hostOps0, Gen.hostOps0_1, Gen.hostOps0_2, List.flatten_cons, List.flatten_nil, List.append_nil,
    List.cons_append, List.nil_append]
  after_results
  rfl

/-- The second operand at a row below 1000 is the prototype array there. -/
theorem protos_apply (c : Dev nD) (q : Fin 1000) (k : Fin 2048) :
    (V m c main_v1 : S1024x2048.Idx → EReal) (ix2 (col q) k) = protos m c (ix2 q k) := by
  rw [V_main_v1]
  exact padded_apply _ q k

/-- The third operand at a column below 1000 is the squared norm of that prototype row. -/
theorem norms_apply (c : Dev nD) (q : Fin 1000) :
    (V m c main_v5 : S1x1024.Idx → EReal) (ix2 (0 : Fin 1) (col q))
      = ∑ k : Fin 2048, protos m c (ix2 q k) * protos m c (ix2 q k) := by
  rw [V_main_v5]
  refine (transpose_ix2_apply _ transposes_S1024x1_S1x1024_1_0 (0 : Fin 1) (col q)).trans ?_
  refine (broadcastInDim_apply ![0] bcast_S1024_S1024x1_0 _ (ix2 (col q) (0 : Fin 1)) (ix1 (col q)) (fun a => by
    match a with
    | ⟨0, _⟩ => show (col q).val = if (1024 : Nat) = 1 then 0 else (col q).val; rw [if_neg (by decide)])).trans ?_
  refine (hostRowSum_apply _ (col q)).trans ?_
  show (∑ k : Fin 2048, mulf (padded (protos m c)) (padded (protos m c)) (ix2 (col q) k) : EReal)
    = ∑ k : Fin 2048, protos m c (ix2 q k) * protos m c (ix2 q k)
  refine Finset.sum_congr rfl fun k _ => ?_
  rw [mulf_apply, padded_apply]

end Cert.KernelIdeal.HostWindows

end
-- ==== Proof.KernelNegDistance.lean ====
/-
  The kernel's result array is the negated-distance array.  The grid has 32 points; point t holds rows
  512 t … 512 t + 511 of the features, all of the padded prototypes and all of the norms' row, and writes back
  rows 512 t … 512 t + 511, all 1000 columns, of the result.  Entry (r, c) of what it writes is `entry` of the
  squared norm of feature row 512 t + r, the squared norm of prototype row c and their inner product
  (the body's payload read at an index, over the blocks read where the output's rectangle says), which is
  entry (512 t + r, c) of `negDist` of the argument arrays.  Row i of the result lies in the block of point
  i / 512, so the 32 blocks cover the array, and the array ends holding `negDist`.
-/
import proofs.«179869_j59081570124167_2_alg».proof.Proof.Gen.KernelIdeal.Value
import proofs.«179869_j59081570124167_2_alg».proof.Proof.Payload
import proofs.«179869_j59081570124167_2_alg».proof.Proof.HostWindows

noncomputable section

namespace Cert.KernelIdeal.KernelValue

open Cert.KernelIdeal Cert.KernelIdeal.Gen Idealize.ShloMosaic Idealize.ShloMosaic.ValueIdx Idealize.ShloMosaic.TcCoe
  Idealize.SL.Sem Cert.NegDistance Cert.KernelIdeal.Payload Cert.KernelIdeal.HostWindows
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the grid: the feature window and the output window are at block row t, block
    column 0; the prototype window and the norms' window never move. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := Nat.lt_of_lt_of_eq t.isLt N_0

/-- Row r of point t's block is row 512 t + r of the array. -/
abbrev row (t : Fin cfg0.N) (r : Fin 512) : Fin 16384 := ⟨t.val * 512 + r.val, by have := point_lt t; have := r.isLt; omega⟩

/-- The feature block at point t, row r: feature row 512 t + r. -/
theorem feat_blk (c : Dev nD) (t : Fin cfg0.N) (r : Fin 512) (k : Fin 2048) :
    iblk m c 0 t (ix2 r k) = feats m c (ix2 (row t r) k) := by
  show V m c main_arg0 (((cfg0.win 0).blk t).view.emb (ix2 r k)) = _
  rw [V_main_arg0]
  refine congrArg (feats m c) (funext fun a => Fin.ext ?_)
  obtain ⟨e0, e1, -⟩ := index_maps t
  match a with
  | ⟨0, _⟩ => show win0_0.index t (0 : Fin 2) * 512 + 1 * r.val = t.val * 512 + r.val; omega
  | ⟨1, _⟩ => show win0_0.index t (1 : Fin 2) * 2048 + 1 * k.val = k.val; omega

/-- The prototype block at any point, at a row below 1000: the prototype array there. -/
theorem proto_blk (c : Dev nD) (t : Fin cfg0.N) (q : Fin 1000) (k : Fin 2048) :
    iblk m c 1 t (ix2 (col q) k) = protos m c (ix2 q k) := by
  show V m c main_v1 (((cfg0.win 1).blk t).view.emb (ix2 (col q) k)) = _
  refine Eq.trans (congrArg (V m c main_v1) (funext fun a => Fin.ext ?_)) (protos_apply m c q k)
  obtain ⟨-, -, e2, e3, -⟩ := index_maps t
  match a with
  | ⟨0, _⟩ => show win0_1.index t (0 : Fin 2) * 1024 + 1 * q.val = q.val; omega
  | ⟨1, _⟩ => show win0_1.index t (1 : Fin 2) * 2048 + 1 * k.val = k.val; omega

/-- The norms' block at any point, at a column below 1000: the squared norm of that prototype row. -/
theorem norm_blk (c : Dev nD) (t : Fin cfg0.N) (q : Fin 1000) :
    iblk m c 2 t (ix2 (0 : Fin 1) (col q)) = ∑ k : Fin 2048, protos m c (ix2 q k) * protos m c (ix2 q k) := by
  show V m c main_v5 (((cfg0.win 2).blk t).view.emb (ix2 (0 : Fin 1) (col q))) = _
  refine Eq.trans (congrArg (V m c main_v5) (funext fun a => Fin.ext ?_)) (norms_apply m c q)
  obtain ⟨-, -, -, -, e4, e5, -⟩ := index_maps t
  match a with
  | ⟨0, _⟩ => show win0_2.index t (0 : Fin 2) * 1 + 1 * 0 = 0; omega
  | ⟨1, _⟩ => show win0_2.index t (1 : Fin 2) * 1024 + 1 * q.val = q.val; omega

/-- WHAT POINT t WRITES BACK is block t of `negDist` of the argument arrays. -/
theorem flushed_eq (c : Dev nD) (t : Fin cfg0.N) :
    (dats m 0 c).flushed 3 t = ((cfg0.win 3).blk t).view.read (Elt Ideal) (negDist (feats m c) (protos m c)) := by
  rw [Value.flushed3]
  unfold out0_3
  rw [View.canon_unit_zero offsets_zero]
  simp only [View.ld_unit_zero (S := S512x2048) offsets_zero, View.ld_unit_zero (S := S1024x2048) offsets_zero,
    View.ld_unit_zero (S := S1x1024) offsets_zero]
  funext j
  obtain ⟨r, q, rfl⟩ : ∃ (r : Fin 512) (q : Fin 1000), j = ix2 r q := ⟨j 0, j 1, eq_ix2 j⟩
  show k0_pay1 (F := Ideal) (iblk m c 0 t) (iblk m c 1 t) (iblk m c 2 t) (ix2 r q)
    = negDist (feats m c) (protos m c) (((cfg0.win 3).blk t).view.emb (ix2 r q))
  have hemb : ((cfg0.win 3).blk t).view.emb (ix2 r q) = ix2 (row t r) q := funext fun a => Fin.ext (by
    obtain ⟨-, -, -, -, -, -, e6, e7⟩ := index_maps t
    match a with
    | ⟨0, _⟩ => show win0_3.index t (0 : Fin 2) * 512 + 1 * r.val = t.val * 512 + r.val; omega
    | ⟨1, _⟩ => show win0_3.index t (1 : Fin 2) * 1000 + 1 * q.val = q.val; omega)
  rw [hemb, negDist_ix2]
  refine (pay_apply _ _ _ r q).trans ?_
  unfold negDistAt
  refine congr (congr (congrArg entry ?_) ?_) ?_
  · exact Finset.sum_congr rfl fun k _ => congrArg₂ (· * ·) (feat_blk m c t r k) (feat_blk m c t r k)
  · exact norm_blk m c t q
  · exact Finset.sum_congr rfl fun k _ => congrArg₂ (· * ·) (feat_blk m c t r k) (proto_blk m c t q k)

/-- An index of the result array is in point t's block iff each coordinate is in the block's range on its axis. -/
theorem mem_blk (t : Fin cfg0.N) (i : S16384x1000.Idx) :
    i ∈ ((cfg0.win 3).blk t).view.set ↔ ∀ a : Fin 2, win0_3.index t a * S512x1000.size a ≤ (i a).val
      ∧ (i a).val < win0_3.index t a * S512x1000.size a + S512x1000.size a := by
  show i ∈ ((View.whole main_v6).slice (win0_3.rect t)).set ↔ _
  rw [View.set_slice_whole, Rect.mem_set_unit]
  exact Iff.rfl

/-- Every index of the result array is in the block of the point its row falls to. -/
theorem cover (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have ht : (i 0).val / 512 < cfg0.N := Nat.lt_of_lt_of_eq (by omega : (i 0).val / 512 < 32) N_0.symm
  refine ⟨⟨(i 0).val / 512, ht⟩, flush0_3 _, ?_⟩
  rw [mem_blk]
  intro a
  obtain ⟨-, -, -, -, -, -, e6, e7⟩ := index_maps ⟨(i 0).val / 512, ht⟩
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 1000 ≤ (i 1).val
      ∧ (i 1).val < win0_3.index ⟨(i 0).val / 512, ht⟩ (1 : Fin 2) * 1000 + 1000
    rw [e7]; omega

/-- THE RESULT ARRAY after the run is `negDist` of the argument arrays as launched. -/
theorem final (c : Dev nD) : (dats m 0 c).arrAt 3 cfg0.N = negDist (feats m c) (protos m c) :=
  (dats m 0 c).arrAt_eq_of_cover 3 (negDist (feats m c) (protos m c)) (fun t _ => flushed_eq m c t) cover

/-- The kernel's run: every weakly fair execution terminates with the result array at `negDist` of the arguments,
    the arguments unchanged. -/
theorem run : θ_run defs (onTc (τ := τ) (main (F := Ideal))) ⟨m, fun _ => 0, ρ⟩ fun r => ∀ c : Dev nD,
      r.2.mem ((c : Thread nD τ).loc main_v6) = negDist (feats m c) (protos m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.lean ====
/- Both programs compute, for features f : [16384, 2048] and prototypes p : [1000, 2048], the array of negated
   Euclidean distances  -(√ max (‖f_b‖² + ‖p_c‖² - 2 ⟨f_b, p_c⟩) 0) / 1  (`Cert.NegDistance.negDist`).
   The reference does so in one pass over whole arrays (Proof/RefNegDistance.lean).  The kernel pads the
   prototypes with 24 zero rows, sums their squares on the host (Proof/HostWindows.lean), and on a grid of 32
   points computes 512 rows of the result at a time from a block of feature rows: the lane sum of the squares,
   a matrix product with the padded prototypes into a zero accumulator, the same clamp, root and sign, keeping
   the first 1000 of 1024 columns (Proof/Payload.lean); the 32 blocks tile the result (Proof/KernelNegDistance.lean).
   The padded rows only ever reach the 24 dropped columns, a sum's initial zero and a negation written 0 - s
   change nothing on the extended reals, and a change of float format is the identity there, so the two arrays
   are one function of the arguments, entry by entry, with no use of the inputs' finiteness.  The idealization
   rewrote nothing, so `preserves` is trivial; the frames are the generated ones. -/
import proofs.«179869_j59081570124167_2_alg».proof.Defs
import proofs.«179869_j59081570124167_2_alg».proof.Proof.Gen.Kernel
import proofs.«179869_j59081570124167_2_alg».proof.Proof.Gen.Kernel.Skeleton
import proofs.«179869_j59081570124167_2_alg».proof.Proof.Gen.Kernel.Launch
import proofs.«179869_j59081570124167_2_alg».proof.Proof.Gen.Kernel.Points
import proofs.«179869_j59081570124167_2_alg».proof.Proof.Gen.Kernel.Frame
import proofs.«179869_j59081570124167_2_alg».proof.Proof.Gen.KernelIdeal
import proofs.«179869_j59081570124167_2_alg».proof.Proof.Gen.KernelIdeal.Skeleton
import proofs.«179869_j59081570124167_2_alg».proof.Proof.Gen.KernelIdeal.Launch
import proofs.«179869_j59081570124167_2_alg».proof.Proof.Gen.KernelIdeal.Points
import proofs.«179869_j59081570124167_2_alg».proof.Proof.Gen.KernelIdeal.Frame
import proofs.«179869_j59081570124167_2_alg».proof.Proof.Gen.ReferenceIdeal
import proofs.«179869_j59081570124167_2_alg».proof.Proof.Gen.Pre_finite_inputs
import proofs.«179869_j59081570124167_2_alg».proof.Proof.Gen.KernelIdeal.Value
import proofs.«179869_j59081570124167_2_alg».proof.Proof.Gen.ReferenceIdeal.Run
import proofs.«179869_j59081570124167_2_alg».proof.Proof.Gen.ReferenceIdeal.Read
import proofs.«179869_j59081570124167_2_alg».proof.Proof.RefNegDistance
import proofs.«179869_j59081570124167_2_alg».proof.Proof.KernelNegDistance
import Idealize.ShloMosaic.Adequacy
import Idealize.ShloMosaic.Init

noncomputable section

namespace Cert.Proof

open Idealize.ShloMosaic Idealize.SL.Sem Cert.NegDistance

theorem frame_k : Cert.frame_Kernel := fun m ρ _ => Cert.Kernel.Gen.frame m ρ
theorem frame_ki : Cert.frame_KernelIdeal := fun m ρ _ => Cert.KernelIdeal.Gen.frame m ρ
/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `negDist` of the argument arrays, which agree. -/
theorem algebraic : Cert.algebraic_KernelIdeal_ReferenceIdeal := by
  intro m ρ m' ρ' _ hagree
  refine ⟨fun c => negDist (Cert.KernelIdeal.HostWindows.feats m c) (Cert.KernelIdeal.HostWindows.protos m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.val_eq_negDist, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
